-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S16x256 : Shape := ⟨2, ![16, 256]⟩
abbrev S256x16 : Shape := ⟨2, ![256, 16]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S64x256x32x32 .f32) (main_arg1 : FVec F S16x256 .f32) (main_arg2 : FVec F S256x16 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S64x256x32x32 : Shape := ⟨4, ![64, 256, 32, 32]⟩
abbrev S16x256 : Shape := ⟨2, ![16, 256]⟩
abbrev S256x16 : Shape := ⟨2, ![256, 16]⟩
abbrev S64x256x1024 : Shape := ⟨3, ![64, 256, 1024]⟩
abbrev S8x256x1024 : Shape := ⟨3, ![8, 256, 1024]⟩
abbrev S8x256 : Shape := ⟨2, ![8, 256]⟩
abbrev S8x16 : Shape := ⟨2, ![8, 16]⟩
abbrev S8x256x1 : Shape := ⟨3, ![8, 256, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x256x32x32, .f32⟩
  | .hbm, ⟨1, _⟩ => ⟨S16x256, .f32⟩
  | .hbm, ⟨2, _⟩ => ⟨S256x16, .f32⟩
  | .hbm, ⟨3, _⟩ => ⟨S64x256x1024, .f32⟩
  | .hbm, ⟨4, _⟩ => ⟨S256x16, .f32⟩
  | .hbm, ⟨5, _⟩ => ⟨S16x256, .f32⟩
  | .hbm, ⟨6, _⟩ => ⟨S64x256x1024, .f32⟩
  | .hbm, ⟨7, _⟩ => ⟨S64x256x32x32, .f32⟩
  | .local _ .vmem, ⟨0, _⟩ => ⟨S8x256x1024, .f32⟩
  | .local _ .vmem, ⟨1, _⟩ => ⟨S8x256x1024, .f32⟩
  | .local _ .vmem, ⟨2, _⟩ => ⟨S256x16, .f32⟩
  | .local _ .vmem, ⟨3, _⟩ => ⟨S16x256, .f32⟩
  | .local _ .vmem, ⟨4, _⟩ => ⟨S8x256x1024, .f32⟩
  | .local _ .vmem, ⟨5, _⟩ => ⟨S8x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x32x32_S64x256x1024 : S64x256x32x32.ShapeCasts S64x256x1024
  transposes_S16x256_S256x16_1_0 : S16x256.Transposes [1, 0] S256x16
  transposes_S256x16_S16x256_1_0 : S256x16.Transposes [1, 0] S16x256
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S8x256_S8x256x1 : S8x256.ShapeCasts S8x256x1
  broadcasts_S8x256x1_S8x256x1024 : S8x256x1.Broadcasts S8x256x1024
  shapeCasts_S64x256x1024_S64x256x32x32 : S64x256x1024.ShapeCasts S64x256x32x32
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x1024.size a
  hwx0_0 : ∀ i : grid0.Coords, EltTy.bits .f32 = 32 ∨ (Rect.block (s := S64x256x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1024.size a ≤ S64x256x1024.size a
  hwx0_3 : ∀ i : grid0.Coords, EltTy.bits .f32 = 32 ∨ (Rect.block (s := S64x256x1024) S8x256x1024.size (cc0_transform_3 i) (hinb0_3 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S16x256 : Shape := ⟨2, ![16, 256]⟩
abbrev S256x16 : Shape := ⟨2, ![256, 16]⟩
abbrev S64x256x1024 : Shape := ⟨3, ![64, 256, 1024]⟩
abbrev S4x256x1024 : Shape := ⟨3, ![4, 256, 1024]⟩
abbrev S4x256 : Shape := ⟨2, ![4, 256]⟩
abbrev S8x256 : Shape := ⟨2, ![8, 256]⟩
abbrev S8x16 : Shape := ⟨2, ![8, 16]⟩
abbrev S4x256x1 : Shape := ⟨3, ![4, 256, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x256x32x32, .f32⟩
  | .hbm, ⟨1, _⟩ => ⟨S16x256, .f32⟩
  | .hbm, ⟨2, _⟩ => ⟨S256x16, .f32⟩
  | .hbm, ⟨3, _⟩ => ⟨S64x256x1024, .f32⟩
  | .hbm, ⟨4, _⟩ => ⟨S256x16, .f32⟩
  | .hbm, ⟨5, _⟩ => ⟨S16x256, .f32⟩
  | .hbm, ⟨6, _⟩ => ⟨S64x256x1024, .f32⟩
  | .hbm, ⟨7, _⟩ => ⟨S64x256x32x32, .f32⟩
  | .local _ .vmem, ⟨0, _⟩ => ⟨S4x256x1024, .f32⟩
  | .local _ .vmem, ⟨1, _⟩ => ⟨S4x256x1024, .f32⟩
  | .local _ .vmem, ⟨2, _⟩ => ⟨S256x16, .f32⟩
  | .local _ .vmem, ⟨3, _⟩ => ⟨S16x256, .f32⟩
  | .local _ .vmem, ⟨4, _⟩ => ⟨S4x256x1024, .f32⟩
  | .local _ .vmem, ⟨5, _⟩ => ⟨S4x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x32x32_S64x256x1024 : S64x256x32x32.ShapeCasts S64x256x1024
  transposes_S16x256_S256x16_1_0 : S16x256.Transposes [1, 0] S256x16
  transposes_S256x16_S16x256_1_0 : S256x16.Transposes [1, 0] S16x256
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  reduces_S4x256x1024_S4x256 : S4x256x1024.Reduces [2] S4x256
  concatenates_S4x256_S4x256_S8x256_d0 : Shape.Concatenates [S4x256, S4x256] S8x256 0
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  slices_S8x256_o0_0_S4x256 : S8x256.Slices ![0, 0] S4x256
  slices_S8x256_o4_0_S4x256 : S8x256.Slices ![4, 0] S4x256
  shapeCasts_S4x256_S4x256x1 : S4x256.ShapeCasts S4x256x1
  broadcasts_S4x256x1_S4x256x1024 : S4x256x1.Broadcasts S4x256x1024
  shapeCasts_S64x256x1024_S64x256x32x32 : S64x256x1024.ShapeCasts S64x256x32x32
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S64x256x1024.size a
  hwx0_0 : ∀ i : grid0.Coords, EltTy.bits .f32 = 32 ∨ (Rect.block (s := S64x256x1024) S4x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x1024.size a ≤ S64x256x1024.size a
  hwx0_3 : ∀ i : grid0.Coords, EltTy.bits .f32 = 32 ∨ (Rect.block (s := S64x256x1024) S4x256x1024.size (cc0_transform_3 i) (hinb0_3 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  Channel attention over a feature map, one batch row at a time.

  A batch row is a `256 × 1024` matrix `xr`: 256 channels, each with 1024 spatial entries. Each channel is
  pooled twice over its entries, to its mean (the sum times `2⁻¹⁰`) and to its maximum. Either pooled vector
  `p` goes through the squeeze layer: hidden unit `j` is `max (∑ c, p c · w1t (c, j)) 0`, which is never
  negative. The gate of channel `c` is the logistic function of the excite layer's output, which can be formed
  in two ways:
    * add the two hidden vectors first, then take one product with column `c` of `w2t` (`gateSum`);
    * take each hidden vector's product with column `c` of `w2t`, then add the two numbers (`gateSplit`).
  The two agree on the extended reals because the hidden units are non-negative, and multiplication distributes
  from the right over a sum of two non-negative numbers whatever the other factor is (`gateSplit_eq_gateSum`):
  no finiteness is used. The output scales every entry of the row by its channel's gate (`scaled`).
-/
import Idealize.ShloMosaic.Lib.ValueIdx
import Idealize.ShloMosaic.PureOps.Ideal.Laws

noncomputable section

namespace Cert.ChannelGate

open Idealize.ShloMosaic Idealize.ShloMosaic.ValueIdx

/-- The squeeze weights, transposed: `256 × 16`. -/
abbrev W1t : Type := (⟨2, ![256, 16]⟩ : Shape).Idx → EReal
/-- The excite weights, transposed: `16 × 256`. -/
abbrev W2t : Type := (⟨2, ![16, 256]⟩ : Shape).Idx → EReal
/-- One batch row: channels by spatial entries. -/
abbrev Row : Type := Fin 256 → Fin 1024 → EReal
/-- The feature map with its two spatial axes merged: `64 × 256 × 1024`. -/
abbrev Arr3 : Type := (⟨3, ![64, 256, 1024]⟩ : Shape).Idx → EReal

/-- The mean of channel `c`: the sum of its entries times `2⁻¹⁰`. -/
def avg (xr : Row) (c : Fin 256) : EReal := (∑ s : Fin 1024, xr c s) * Ideal.ofBits .f32 0x3A800000#32

/-- The maximum of channel `c`, folded from `-∞`. -/
def top (xr : Row) (c : Fin 256) : EReal :=
  (Finset.univ : Finset (Fin 1024)).fold max (Ideal.ofBits .f32 0xFF800000#32) (fun s => xr c s)

/-- Hidden unit `j` of the squeeze layer on a pooled vector `p`. -/
def hid (w1t : W1t) (p : Fin 256 → EReal) (j : Fin 16) : EReal := max (∑ c : Fin 256, p c * w1t (ix2 c j)) 0

theorem hid_nonneg (w1t : W1t) (p : Fin 256 → EReal) (j : Fin 16) : 0 ≤ hid w1t p j := le_max_right _ _

/-- The gate of channel `c`, the two hidden vectors added before the excite layer. -/
def gateSum (w1t : W1t) (w2t : W2t) (xr : Row) (c : Fin 256) : EReal :=
  Ideal.logistic (∑ j : Fin 16, (hid w1t (avg xr) j + hid w1t (top xr) j) * w2t (ix2 j c))

/-- The gate of channel `c`, the excite layer applied to each hidden vector and the two results added. -/
def gateSplit (w1t : W1t) (w2t : W2t) (xr : Row) (c : Fin 256) : EReal :=
  Ideal.logistic ((∑ j : Fin 16, hid w1t (avg xr) j * w2t (ix2 j c)) + ∑ j : Fin 16, hid w1t (top xr) j * w2t (ix2 j c))

/-- The two gates are one function: `(a + b) · w = a · w + b · w` for non-negative `a`, `b` and any `w`, term by
    term under the sum over the hidden units. -/
theorem gateSplit_eq_gateSum (w1t : W1t) (w2t : W2t) (xr : Row) (c : Fin 256) :
    gateSplit w1t w2t xr c = gateSum w1t w2t xr c := by
  unfold gateSplit gateSum
  rw [← Finset.sum_add_distrib]
  exact congrArg Ideal.logistic (Finset.sum_congr rfl fun j _ =>
    (EReal.right_distrib_of_nonneg (hid_nonneg w1t (avg xr) j) (hid_nonneg w1t (top xr) j)).symm)

/-- The whole output for a given gate: entry `(n, c, s)` of the input times the gate of channel `c` of batch row `n`. -/
def scaled (gate : W1t → W2t → Row → Fin 256 → EReal) (x3 : Arr3) (w1t : W1t) (w2t : W2t) : Arr3 :=
  fun i => x3 i * gate w1t w2t (fun c s => x3 (ix3 (i 0) c s)) (i 1)

/-- Merging the two spatial axes, splitting them again, and transposing either weight matrix are well-formed. -/
theorem merge_ok : (⟨4, ![64, 256, 32, 32]⟩ : Shape).ShapeCasts ⟨3, ![64, 256, 1024]⟩ := by decide
theorem split_ok : (⟨3, ![64, 256, 1024]⟩ : Shape).ShapeCasts ⟨4, ![64, 256, 32, 32]⟩ := by decide
theorem squeezeT_ok : (⟨2, ![16, 256]⟩ : Shape).Transposes [1, 0] ⟨2, ![256, 16]⟩ := by decide
theorem exciteT_ok : (⟨2, ![256, 16]⟩ : Shape).Transposes [1, 0] ⟨2, ![16, 256]⟩ := by decide

/-- The whole program for a given gate: merge the feature map's spatial axes, transpose both weight matrices, scale
    every entry by its channel's gate, and split the spatial axis again. -/
def whole (gate : W1t → W2t → Row → Fin 256 → EReal) (x : (⟨4, ![64, 256, 32, 32]⟩ : Shape).Idx → EReal)
    (w1 : (⟨2, ![16, 256]⟩ : Shape).Idx → EReal) (w2 : (⟨2, ![256, 16]⟩ : Shape).Idx → EReal) :
    (⟨4, ![64, 256, 32, 32]⟩ : Shape).Idx → EReal :=
  shapeCast ⟨4, ![64, 256, 32, 32]⟩
    (scaled gate (shapeCast ⟨3, ![64, 256, 1024]⟩ x merge_ok) (transpose ⟨2, ![256, 16]⟩ [1, 0] w1 squeezeT_ok)
      (transpose ⟨2, ![16, 256]⟩ [1, 0] w2 exciteT_ok))
    split_ok

theorem scaled_split_eq_sum : scaled gateSplit = scaled gateSum := by
  funext x3 w1t w2t i
  exact congrArg (x3 i * ·) (gateSplit_eq_gateSum w1t w2t _ _)

theorem whole_split_eq_sum : whole gateSplit = whole gateSum := by
  unfold whole
  rw [scaled_split_eq_sum]

end Cert.ChannelGate

end
-- ==== Proof.LibPooling.lean ====
/-
  Pooling along the last axis of a stack of matrices, and a pooled matrix spread back over that axis, read at
  explicit coordinates.

  A `B × C × S` array is `B` matrices of `C` rows and `S` columns. Summing, or taking the maximum, along the
  last axis leaves a `B × C` matrix whose entry `(b, c)` is the sum (the maximum) of row `c` of matrix `b`.
  To multiply every row by a number of its own the `B × C` matrix is reshaped to `B × C × 1` and spread along
  the last axis to `B × C × S`: entry `(b, c, s)` of the spread array is entry `(b, c)` of the matrix.
-/
import Idealize.ShloMosaic.Lib.ValueIdx
import Idealize.ShloMosaic.Lib.Pipeline.Value
import Idealize.ShloMosaic.PureOps.Ideal.Laws

namespace Cert.LibPooling

open Idealize.ShloMosaic Idealize.ShloMosaic.ValueIdx

variable {α : Type}

/-- The coordinates of the index a last-axis reduction reads: those of the kept index, then the summation index. -/
theorem lift_last3 {B C S : ℕ} (h : (⟨3, ![B, C, S]⟩ : Shape).Reduces [2] ⟨2, ![B, C]⟩) (b : Fin B) (c : Fin C) (s : Fin S) :
    h.lift (ix2 b c) s = ix3 b c s :=
  funext fun a => Fin.ext (by
    match a with
    | ⟨0, _⟩ => rfl
    | ⟨1, _⟩ => rfl
    | ⟨2, _⟩ => rfl)

/-- The sum along the last axis, at `(b, c)`: the sum of row `c` of matrix `b`. -/
theorem sum_last3_apply {B C S : ℕ} {φ : FTy} (x : FVec Ideal ⟨3, ![B, C, S]⟩ φ) (acc : BitVec φ.bits)
    (h : (⟨3, ![B, C, S]⟩ : Shape).Reduces [2] ⟨2, ![B, C]⟩) (hφ : FKind.Formats φ) (hacc : acc = FKind.add.neutral φ hφ)
    (b : Fin B) (c : Fin C) :
    multiReduction .add [2] ⟨2, ![B, C]⟩ x acc h hφ hacc (ix2 b c) = ∑ s : Fin S, x (ix3 b c s) :=
  (Ideal.multiReduction_add_single x acc h hφ hacc (ix2 b c)).trans
    (Finset.sum_congr rfl fun s _ => congrArg x (lift_last3 h b c s))

/-- The maximum along the last axis, at `(b, c)`: the maximum of row `c` of matrix `b`, folded from the
    starting value. -/
theorem max_last3_apply {B C S : ℕ} {φ : FTy} (x : FVec Ideal ⟨3, ![B, C, S]⟩ φ) (acc : BitVec φ.bits)
    (h : (⟨3, ![B, C, S]⟩ : Shape).Reduces [2] ⟨2, ![B, C]⟩) (hφ : FKind.Formats φ) (hacc : acc = FKind.maximumf.neutral φ hφ)
    (b : Fin B) (c : Fin C) :
    multiReduction .maximumf [2] ⟨2, ![B, C]⟩ x acc h hφ hacc (ix2 b c)
      = (Finset.univ : Finset (Fin S)).fold max (Ideal.ofBits φ acc) (fun s => x (ix3 b c s)) :=
  (Ideal.multiReduction_maximumf_single x acc h hφ hacc (ix2 b c)).trans
    (congrArg ((Finset.univ : Finset (Fin S)).fold max (Ideal.ofBits φ acc)) (funext fun s => congrArg x (lift_last3 h b c s)))

/-- A `B × C` matrix reshaped to `B × C × 1`: entry `(b, c, u)` is the matrix's entry `(b, c)`. -/
theorem shapeCast_bc_bc1_apply {B C : ℕ} (x : (⟨2, ![B, C]⟩ : Shape).Idx → α)
    (h : (⟨2, ![B, C]⟩ : Shape).ShapeCasts ⟨3, ![B, C, 1]⟩) (b : Fin B) (c : Fin C) (u : Fin 1) :
    shapeCast ⟨3, ![B, C, 1]⟩ x h (ix3 b c u) = x (ix2 b c) :=
  shapeCast_apply x h _ _ (by
    have hu : u.val = 0 := by omega
    rw [Shape.rowMajor_val_three, Shape.rowMajor_val_two]
    show b.val * C + c.val = (b.val * C + c.val) * 1 + u.val
    rw [hu, Nat.mul_one, Nat.add_zero])

/-- A `B × C × 1` array spread along the last axis to `B × C × S`: entry `(b, c, s)` is the array's entry
    `(b, c, 0)`. -/
theorem broadcastTo_bc1_bcs_apply {B C S : ℕ} (v : (⟨3, ![B, C, 1]⟩ : Shape).Idx → α)
    (h : (⟨3, ![B, C, 1]⟩ : Shape).Broadcasts ⟨3, ![B, C, S]⟩) (b : Fin B) (c : Fin C) (s : Fin S) :
    broadcastTo ⟨3, ![B, C, S]⟩ v h (ix3 b c s) = v (ix3 b c (0 : Fin 1)) := by
  refine broadcastTo_apply v h (ix3 b c s) (ix3 b c (0 : Fin 1)) fun ax => ?_
  match ax with
  | ⟨0, _⟩ =>
    show b.val = if B = 1 then 0 else b.val
    split
    · have := b.isLt; omega
    · rfl
  | ⟨1, _⟩ =>
    show c.val = if C = 1 then 0 else c.val
    split
    · have := c.isLt; omega
    · rfl
  | ⟨2, _⟩ => rfl

end Cert.LibPooling
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.KDots.lean ====
/-
  The two matrix products of the body, entry by entry.

  Both contract the left operand's columns with the right operand's rows: entry `(b, j)` of an `8 × 256` matrix
  times a `256 × 16` one is the sum over `c` of `p (b, c) · w (c, j)`, and entry `(b, c)` of an `8 × 16` matrix
  times a `16 × 256` one is the sum over `j` of `h (b, j) · w (j, c)`; the accumulator is zero.
-/
import proofs.«151759_g2000209558331450_pallasbulk_187_17_alg».proof.Proof.Gen.KernelIdeal
import proofs.«151759_g2000209558331450_pallasbulk_187_17_alg».proof.Proof.LibColumns
import Idealize.ShloMosaic.Lib.ValueIdx
import Idealize.ShloMosaic.PureOps.Ideal.Laws

noncomputable section

namespace Cert.KernelIdeal.Dots

open Idealize.ShloMosaic Idealize.ShloMosaic.ValueIdx Cert.KernelIdeal

/-- The squeeze product's dimension record. -/
abbrev D1 := dot_S8x256_S256x16_S8x16_1_0_0_1_n_n
/-- The excite product's dimension record. -/
abbrev D2 := dot_S8x16_S16x256_S8x256_1_0_0_1_n_n

theorem d1_lhs0 (j : S8x16.Idx) (k : D1.contr.Idx) : (D1.lhsIdx j k 0 : ℕ) = j 0 := by
  simp [DotDims.lhsIdx, D1, dot_S8x256_S256x16_S8x16_1_0_0_1_n_n]; rfl
theorem d1_lhs1 (j : S8x16.Idx) (k : D1.contr.Idx) : (D1.lhsIdx j k 1 : ℕ) = k ⟨0, by decide⟩ := by
  simp [DotDims.lhsIdx, D1, dot_S8x256_S256x16_S8x16_1_0_0_1_n_n]; rfl
theorem d1_rhs0 (j : S8x16.Idx) (k : D1.contr.Idx) : (D1.rhsIdx j k 0 : ℕ) = k ⟨0, by decide⟩ := by
  simp [DotDims.rhsIdx, D1, dot_S8x256_S256x16_S8x16_1_0_0_1_n_n]; rfl
theorem d1_rhs1 (j : S8x16.Idx) (k : D1.contr.Idx) : (D1.rhsIdx j k 1 : ℕ) = j 1 := by
  simp [DotDims.rhsIdx, D1, dot_S8x256_S256x16_S8x16_1_0_0_1_n_n]; rfl

theorem d2_lhs0 (j : S8x256.Idx) (k : D2.contr.Idx) : (D2.lhsIdx j k 0 : ℕ) = j 0 := by
  simp [DotDims.lhsIdx, D2, dot_S8x16_S16x256_S8x256_1_0_0_1_n_n]; rfl
theorem d2_lhs1 (j : S8x256.Idx) (k : D2.contr.Idx) : (D2.lhsIdx j k 1 : ℕ) = k ⟨0, by decide⟩ := by
  simp [DotDims.lhsIdx, D2, dot_S8x16_S16x256_S8x256_1_0_0_1_n_n]; rfl
theorem d2_rhs0 (j : S8x256.Idx) (k : D2.contr.Idx) : (D2.rhsIdx j k 0 : ℕ) = k ⟨0, by decide⟩ := by
  simp [DotDims.rhsIdx, D2, dot_S8x16_S16x256_S8x256_1_0_0_1_n_n]; rfl
theorem d2_rhs1 (j : S8x256.Idx) (k : D2.contr.Idx) : (D2.rhsIdx j k 1 : ℕ) = j 1 := by
  simp [DotDims.rhsIdx, D2, dot_S8x16_S16x256_S8x256_1_0_0_1_n_n]; rfl

/-- Entry `(b, j)` of the squeeze product into a zero accumulator. -/
theorem squeeze_apply (p : FVec Ideal S8x256 .f32) (w : FVec Ideal S256x16 .f32) (b : Fin 8) (j : Fin 16) :
    matmul D1 none p w (constant S8x16 .f32 0x00000000#32) (ix2 b j) = ∑ c : Fin 256, p (ix2 b c) * w (ix2 c j) := by
  refine (Ideal.matmul_constant_zero_apply D1 none p w (ix2 b j)).trans ?_
  refine Cert.LibColumns.sum_contr1 D1 256 (by decide) (by decide) p w (ix2 b j) (fun c => ix2 b c) (fun c => ix2 c j) (fun c => ?_) (fun c => ?_)
  · funext a; apply Fin.ext
    match a with
    | ⟨0, _⟩ => exact d1_lhs0 _ _
    | ⟨1, _⟩ => exact (d1_lhs1 _ _).trans (contrEquiv1_symm_val D1 256 _ _ c)
  · funext a; apply Fin.ext
    match a with
    | ⟨0, _⟩ => exact (d1_rhs0 _ _).trans (contrEquiv1_symm_val D1 256 _ _ c)
    | ⟨1, _⟩ => exact d1_rhs1 _ _

/-- Entry `(b, c)` of the excite product into a zero accumulator. -/
theorem excite_apply (h : FVec Ideal S8x16 .f32) (w : FVec Ideal S16x256 .f32) (b : Fin 8) (c : Fin 256) :
    matmul D2 none h w (constant S8x256 .f32 0x00000000#32) (ix2 b c) = ∑ j : Fin 16, h (ix2 b j) * w (ix2 j c) := by
  refine (Ideal.matmul_constant_zero_apply D2 none h w (ix2 b c)).trans ?_
  refine Cert.LibColumns.sum_contr1 D2 16 (by decide) (by decide) h w (ix2 b c) (fun j => ix2 b j) (fun j => ix2 j c) (fun j => ?_) (fun j => ?_)
  · funext a; apply Fin.ext
    match a with
    | ⟨0, _⟩ => exact d2_lhs0 _ _
    | ⟨1, _⟩ => exact (d2_lhs1 _ _).trans (contrEquiv1_symm_val D2 16 _ _ j)
  · funext a; apply Fin.ext
    match a with
    | ⟨0, _⟩ => exact (d2_rhs0 _ _).trans (contrEquiv1_symm_val D2 16 _ _ j)
    | ⟨1, _⟩ => exact d2_rhs1 _ _

end Cert.KernelIdeal.Dots

end
-- ==== Proof.KPay.lean ====
/-
  What the body stores, entry by entry.

  The body loads a block of 8 batch rows and the two weight matrices and stores, at `(b, c, s)`, the block's
  entry times the gate of channel `c` computed from batch row `b` of the block alone: both poolings run along the
  spatial axis of that row, the squeeze and excite products keep the row index, and the two hidden vectors are
  added before the excite product (`gateSum`).
-/
import proofs.«151759_g2000209558331450_pallasbulk_187_17_alg».proof.Proof.Gen.KernelIdeal.Skeleton
import proofs.«151759_g2000209558331450_pallasbulk_187_17_alg».proof.Proof.Spec
import proofs.«151759_g2000209558331450_pallasbulk_187_17_alg».proof.Proof.LibPooling
import proofs.«151759_g2000209558331450_pallasbulk_187_17_alg».proof.Proof.KDots
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.KernelIdeal.Dots
open Cert.ChannelGate

/-- Batch row `b` of a block, as a matrix of channels by spatial entries. -/
abbrev rowOf (x : S8x256x1024.Idx → EReal) (b : Fin 8) : Row := fun c s => x (ix3 b c s)

/-- The mean pooling at `(b, c)`. -/
theorem mean_apply (x : FVec Ideal S8x256x1024 .f32) (h : S8x256x1024.Reduces [2] S8x256) (hφ : FKind.Formats .f32)
    (hacc : (0x00000000#32 : BitVec 32) = FKind.add.neutral .f32 hφ) (b : Fin 8) (c : Fin 256) :
    mulf (multiReduction .add [2] S8x256 x 0x00000000#32 h hφ hacc) (broadcast S8x256 (Scalar.ofBits (F := Ideal) .f32 0x3A800000#32)) (ix2 b c)
      = avg (rowOf x b) c :=
  congrArg (· * Ideal.ofBits .f32 0x3A800000#32) (Cert.LibPooling.sum_last3_apply x _ h hφ hacc b c)

/-- The maximum pooling at `(b, c)`. -/
theorem top_apply (x : FVec Ideal S8x256x1024 .f32) (h : S8x256x1024.Reduces [2] S8x256) (hφ : FKind.Formats .f32)
    (hacc : (0xFF800000#32 : BitVec 32) = FKind.maximumf.neutral .f32 hφ) (b : Fin 8) (c : Fin 256) :
    multiReduction .maximumf [2] S8x256 x 0xFF800000#32 h hφ hacc (ix2 b c) = top (rowOf x b) c :=
  Cert.LibPooling.max_last3_apply x _ h hφ hacc b c

/-- A hidden unit: the squeeze product of a pooled matrix `P` whose row `b` is the pooled vector `p`, cut off below at zero. -/
theorem hid_apply (P : FVec Ideal S8x256 .f32) (w1 : FVec Ideal S256x16 .f32) (b : Fin 8) (p : Fin 256 → EReal)
    (hP : ∀ c, P (ix2 b c) = p c) (j : Fin 16) :
    maximumf (matmul D1 none P w1 (constant S8x16 .f32 0x00000000#32)) (broadcast S8x16 (Scalar.ofBits (F := Ideal) .f32 0x00000000#32)) (ix2 b j)
      = hid w1 p j := by
  unfold hid
  refine congrArg₂ max ?_ Ideal.ofBits_zero_f32
  refine (squeeze_apply P w1 b j).trans ?_
  exact Finset.sum_congr rfl fun c _ => congrArg (· * w1 (ix2 c j)) (hP c)

/-- The stored value at `(b, c, s)`. -/
theorem pay_apply (x0 : Vec Ideal S8x256x1024 .f32) (w1 : Vec Ideal S256x16 .f32) (w2 : Vec Ideal S16x256 .f32)
    (b : Fin 8) (c : Fin 256) (s : Fin 1024) :
    k0_pay1 x0 w1 w2 (ix3 b c s) = x0 (ix3 b c s) * gateSum w1 w2 (rowOf x0 b) c := by
  unfold k0_pay1
  simp only [shapeCast_self]
  refine congrArg (x0 (ix3 b c s) * ·) ?_
  refine (Cert.LibPooling.broadcastTo_bc1_bcs_apply _ _ b c s).trans ?_
  refine (Cert.LibPooling.shapeCast_bc_bc1_apply _ _ b c 0).trans ?_
  unfold gateSum
  refine congrArg Ideal.logistic ?_
  refine (excite_apply _ w2 b c).trans ?_
  refine Finset.sum_congr rfl fun j _ => congrArg (· * w2 (ix2 j c)) ?_
  refine congrArg₂ (· + ·) ?_ ?_
  · exact hid_apply _ w1 b _ (fun c' => mean_apply x0 _ _ _ b c') j
  · exact hid_apply _ w1 b _ (fun c' => top_apply x0 _ _ _ b c') j

end Cert.KernelIdeal.Pay

end
-- ==== Proof.KValue.lean ====
/-
  From blocks to the array.

  Grid point `t` works on batch rows `8 t … 8 t + 7`: its input block and its output block are those rows of the
  `64 × 256 × 1024` arrays, and both weight matrices are read whole at every point. What the point writes back is
  therefore the same rows of one whole-array function of the arrays the region finds (`region`): the stored entry
  depends on its own batch row only. Every batch row lies in exactly the block of point `n / 8`, so after the last
  point the output array is that function everywhere.
-/
import proofs.«151759_g2000209558331450_pallasbulk_187_17_alg».proof.Proof.Gen.KernelIdeal.Frame
import proofs.«151759_g2000209558331450_pallasbulk_187_17_alg».proof.Proof.KPay
import proofs.«151759_g2000209558331450_pallasbulk_187_17_alg».proof.Proof.Spec
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.ChannelGate

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output array as one function of the three arrays the region finds. -/
abbrev region (c : Dev nD) : S64x256x1024.Idx → EReal :=
  scaled gateSum (V m c main_v0) (V m c main_v1) (V m c main_v2)

/-- The index maps over the grid: the input and output blocks of point `t` are block `t` along the batch axis and
    whole along the others; the weight blocks are the whole matrices. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point `t` writes back is block `t` of `region`. -/
theorem flushed_eq (c : Dev nD) (t : Fin cfg0.N) :
    (dats m 0 c).flushed 3 t = ((cfg0.win 3).blk t).view.read (Elt Ideal) (region m c) := by
  show (cfg0.win 3).cut (grid0.coords t) ((dats m 0 c).after 3 t) = _
  rw [after0_3]
  unfold out0_3
  rw [View.canon_unit_zero zeros3]
  simp only [View.ld_unit_zero (S := S8x256x1024) zeros3, View.ld_unit_zero (S := S256x16) zeros2, View.ld_unit_zero (S := S16x256) zeros2]
  obtain ⟨e00, e01, e02, e30, e31, e32, e10, e11, e20, e21⟩ := idx_facts t
  have ht : t.val < 8 := by have := t.isLt; have hN : cfg0.N = 8 := N_0; omega
  funext j
  obtain ⟨b, ch, s, rfl⟩ : ∃ (b : Fin 8) (ch : Fin 256) (s : Fin 1024), j = ix3 b ch s := ⟨j 0, j 1, j 2, eq_ix3 j⟩
  show k0_pay1 (iblk m c 0 t) (iblk m c 1 t) (iblk m c 2 t) (ix3 b ch s) = region m c (((cfg0.win 3).blk t).view.emb (ix3 b ch s))
  refine (pay_apply (iblk m c 0 t) (iblk m c 1 t) (iblk m c 2 t) b ch s).trans ?_
  -- the batch row of the array that row `b` of block `t` is
  have hn : t.val * 8 + b.val < 64 := by have := b.isLt; omega
  have emb3 : ((cfg0.win 3).blk t).view.emb (ix3 b ch s) = ix3 (⟨t.val * 8 + b.val, hn⟩ : Fin 64) ch s := by
    funext a; apply Fin.ext
    match a with
    | ⟨0, _⟩ => show win0_3.index t (0 : Fin 3) * 8 + 1 * b.val = t.val * 8 + b.val; omega
    | ⟨1, _⟩ => show win0_3.index t (1 : Fin 3) * 256 + 1 * ch.val = ch.val; omega
    | ⟨2, _⟩ => show win0_3.index t (2 : Fin 3) * 1024 + 1 * s.val = s.val; omega
  have emb0 : ∀ (ch' : Fin 256) (s' : Fin 1024),
      ((cfg0.win 0).blk t).view.emb (ix3 b ch' s') = ix3 (⟨t.val * 8 + b.val, hn⟩ : Fin 64) ch' s' := fun ch' s' => by
    funext a; apply Fin.ext
    match a with
    | ⟨0, _⟩ => show win0_0.index t (0 : Fin 3) * 8 + 1 * b.val = t.val * 8 + b.val; omega
    | ⟨1, _⟩ => show win0_0.index t (1 : Fin 3) * 256 + 1 * ch'.val = ch'.val; omega
    | ⟨2, _⟩ => show win0_0.index t (2 : Fin 3) * 1024 + 1 * s'.val = s'.val; omega
  have blk0 : ∀ (ch' : Fin 256) (s' : Fin 1024),
      iblk m c 0 t (ix3 b ch' s') = V m c main_v0 (ix3 (⟨t.val * 8 + b.val, hn⟩ : Fin 64) ch' s') := fun ch' s' => by
    show V m c main_v0 (((cfg0.win 0).blk t).view.emb (ix3 b ch' s')) = _
    rw [emb0]
  have blk1 : (iblk m c 1 t : S256x16.Idx → EReal) = V m c main_v1 := funext fun y => by
    show V m c main_v1 (((cfg0.win 1).blk t).view.emb y) = V m c main_v1 y
    refine congrArg (V m c main_v1) (funext fun a => Fin.ext ?_)
    match a with
    | ⟨0, _⟩ => show win0_1.index t (0 : Fin 2) * 256 + 1 * (y 0).val = (y 0).val; omega
    | ⟨1, _⟩ => show win0_1.index t (1 : Fin 2) * 16 + 1 * (y 1).val = (y 1).val; omega
  have blk2 : (iblk m c 2 t : S16x256.Idx → EReal) = V m c main_v2 := funext fun y => by
    show V m c main_v2 (((cfg0.win 2).blk t).view.emb y) = V m c main_v2 y
    refine congrArg (V m c main_v2) (funext fun a => Fin.ext ?_)
    match a with
    | ⟨0, _⟩ => show win0_2.index t (0 : Fin 2) * 16 + 1 * (y 0).val = (y 0).val; omega
    | ⟨1, _⟩ => show win0_2.index t (1 : Fin 2) * 256 + 1 * (y 1).val = (y 1).val; omega
  have row : rowOf (iblk m c 0 t) b = fun ch' s' => V m c main_v0 (ix3 (⟨t.val * 8 + b.val, hn⟩ : Fin 64) ch' s') :=
    funext fun ch' => funext fun s' => blk0 ch' s'
  rw [emb3, row, blk0, blk1, blk2]
  rfl

/-- An index of the array is in point `t`'s block iff each coordinate is in the block's range on its axis. -/
theorem mem_blk (t : Fin cfg0.N) (i : S64x256x1024.Idx) :
    i ∈ ((cfg0.win 3).blk t).view.set ↔ ∀ a : Fin 3, win0_3.index t a * S8x256x1024.size a ≤ (i a).val ∧ (i a).val < win0_3.index t a * S8x256x1024.size a + S8x256x1024.size a := by
  show i ∈ ((View.whole main_v3).slice (win0_3.rect t)).set ↔ _
  rw [View.set_slice_whole, Rect.mem_set_unit]
  exact Iff.rfl

/-- Every index is in the block of the point its batch row belongs to. -/
theorem cover (i : S64x256x1024.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  have hN : grid0.N = 8 := N_0
  have hq : (i 0).val / 8 < grid0.N := by rw [hN]; omega
  obtain ⟨e00, e01, e02, e30, e31, e32, e10, e11, e20, e21⟩ := idx_facts ⟨(i 0).val / 8, hq⟩
  have e30' : win0_3.index ⟨(i 0).val / 8, hq⟩ (0 : Fin 3) = (i 0).val / 8 := e30
  refine ⟨⟨(i 0).val / 8, hq⟩, flush0_3 _, ?_⟩
  rw [mem_blk]
  intro a
  match a with
  | ⟨0, _⟩ => show win0_3.index ⟨(i 0).val / 8, hq⟩ (0 : Fin 3) * 8 ≤ (i 0).val ∧ (i 0).val < win0_3.index ⟨(i 0).val / 8, hq⟩ (0 : Fin 3) * 8 + 8; omega
  | ⟨1, _⟩ => show win0_3.index ⟨(i 0).val / 8, hq⟩ (1 : Fin 3) * 256 ≤ (i 1).val ∧ (i 1).val < win0_3.index ⟨(i 0).val / 8, hq⟩ (1 : Fin 3) * 256 + 256; omega
  | ⟨2, _⟩ => show win0_3.index ⟨(i 0).val / 8, hq⟩ (2 : Fin 3) * 1024 ≤ (i 2).val ∧ (i 2).val < win0_3.index ⟨(i 0).val / 8, hq⟩ (2 : Fin 3) * 1024 + 1024; omega

/-- The output array after the last point. -/
theorem final (c : Dev nD) : (dats m 0 c).arrAt 3 cfg0.N = region m c :=
  (dats m 0 c).arrAt_eq_of_cover 3 (region m c) (fun t _ => flushed_eq m c t) cover

end Cert.KernelIdeal.Val

end
-- ==== Proof.KHost.lean ====
/-
  The host lines around the region.

  Before the region the feature map's two spatial axes are merged (`64 × 256 × 32 × 32` to `64 × 256 × 1024`, the
  same entries in row-major order) and both weight matrices are transposed; after it the region's output array is
  split back to `64 × 256 × 32 × 32`. So the program's result is `whole` of the gate: the reshape of the
  region's function applied to the reshaped input and the transposed weights.
-/
import proofs.«151759_g2000209558331450_pallasbulk_187_17_alg».proof.Proof.Gen.KernelIdeal.Frame
import proofs.«151759_g2000209558331450_pallasbulk_187_17_alg».proof.Proof.Spec
import Idealize.ShloMosaic.Lib.StableHlo.Run
import Idealize.ShloMosaic.Lib.Pipeline.FrameSuffix

set_option maxRecDepth 16384

noncomputable section

namespace Cert.KernelIdeal.Host

open Idealize.ShloMosaic Idealize.ShloMosaic.TcCoe Idealize.ShloMosaic.StableHlo Idealize.SL.Sem
open Idealize.ShloMosaic.Pipeline (Dat)
open Cert.KernelIdeal Cert.KernelIdeal.Gen Cert.ChannelGate

variable (m : (ℓ : Loc nD τ sig) → Buf (Elt Ideal) ℓ) (ρ : Dev nD → PrngReg)

/-- The region finds the feature map with its spatial axes merged. -/
theorem found_v0 (c : Dev nD) :
    (V m c main_v0 : S64x256x1024.Idx → EReal)
      = shapeCast S64x256x1024 (m ((c : Thread nD τ).loc main_arg0)) shapeCasts_S64x256x32x32_S64x256x1024 := by
  show StableHlo.after hostOps0 (fun b => m (c, b)) (Proc.devRef .tc main_v0) = _
  after_results
  rfl

/-- The region finds the squeeze weights transposed. -/
theorem found_v1 (c : Dev nD) :
    (V m c main_v1 : S256x16.Idx → EReal)
      = transpose S256x16 [1, 0] (m ((c : Thread nD τ).loc main_arg1)) transposes_S16x256_S256x16_1_0 := by
  show StableHlo.after hostOps0 (fun b => m (c, b)) (Proc.devRef .tc main_v1) = _
  after_results

/-- The region finds the excite weights transposed. -/
theorem found_v2 (c : Dev nD) :
    (V m c main_v2 : S16x256.Idx → EReal)
      = transpose S16x256 [1, 0] (m ((c : Thread nD τ).loc main_arg2)) transposes_S256x16_S16x256_1_0 := by
  show StableHlo.after hostOps0 (fun b => m (c, b)) (Proc.devRef .tc main_v2) = _
  after_results

/-- The program's result is the region's output array with the spatial axis split again. -/
theorem tail_v4 (c : Dev nD) :
    (Pipeline.afterTail₀ cfgs (dats m) 0 (V0 m) [hostOps1] c main_v4 : S64x256x32x32.Idx → EReal)
      = shapeCast S64x256x32x32 ((dats m 0 c).arrAt 3 cfg0.N) shapeCasts_S64x256x1024_S64x256x32x32 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w cfg0.N) 3
  rw [e]
  rfl

end Cert.KernelIdeal.Host

end
-- ==== Proof.KRun.lean ====
/-
  The program's run, read.

  Every execution ends with the result array at `whole gateSum` of the three argument arrays as launched — the
  region's output array is its whole-array function of what the region finds, the host lines before the region
  produce what it finds from the arguments, the host line after it reshapes the output — and with the arguments
  unchanged.
-/
import proofs.«151759_g2000209558331450_pallasbulk_187_17_alg».proof.Proof.Gen.KernelIdeal.Frame
import proofs.«151759_g2000209558331450_pallasbulk_187_17_alg».proof.Proof.KValue
import proofs.«151759_g2000209558331450_pallasbulk_187_17_alg».proof.Proof.KHost
import proofs.«151759_g2000209558331450_pallasbulk_187_17_alg».proof.Proof.Spec

set_option maxRecDepth 16384

noncomputable section

namespace Cert.KernelIdeal.Run

open Idealize.ShloMosaic Idealize.ShloMosaic.TcCoe Idealize.SL.Sem
open Cert.KernelIdeal Cert.KernelIdeal.Gen Cert.ChannelGate

variable (m : (ℓ : Loc nD τ sig) → Buf (Elt Ideal) ℓ) (ρ : Dev nD → PrngReg)

/-- The result array after the host line that follows the region. -/
theorem result_eq (c : Dev nD) :
    (Pipeline.afterTail₀ cfgs (dats m) 0 (V0 m) [hostOps1] c main_v4 : S64x256x32x32.Idx → EReal)
      = whole gateSum (m ((c.tc : Thread nD τ).loc main_arg0)) (m ((c.tc : Thread nD τ).loc main_arg1))
          (m ((c.tc : Thread nD τ).loc main_arg2)) := by
  rw [Cert.KernelIdeal.Host.tail_v4, Cert.KernelIdeal.Val.final]
  show shapeCast S64x256x32x32 (scaled gateSum (V m c main_v0) (V m c main_v1) (V m c main_v2)) _ = _
  rw [Cert.KernelIdeal.Host.found_v0, Cert.KernelIdeal.Host.found_v1, Cert.KernelIdeal.Host.found_v2]
  rfl

/-- Every execution terminates with the result at `whole gateSum` of the arguments, and the arguments unchanged. -/
theorem run : θ_run defs (onTc (τ := τ) (main (F := Ideal))) ⟨m, fun _ => 0, ρ⟩ (fun r => ∀ c : Dev nD,
      r.2.mem ((c.tc : Thread nD τ).loc main_v4)
        = whole gateSum (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RDots.lean ====
/-
  The two matrix products of the body, entry by entry.

  The left operands have 8 rows: the 4 mean rows of the block stacked over its 4 maximum rows. Both products
  contract the left operand's columns with the right operand's rows: entry `(r, j)` of an `8 × 256` matrix times a
  `256 × 16` one is the sum over `c` of `p (r, c) · w (c, j)`, and entry `(r, c)` of an `8 × 16` matrix times a
  `16 × 256` one is the sum over `j` of `h (r, j) · w (j, c)`; the accumulator is zero.
-/
import proofs.«151759_g2000209558331450_pallasbulk_187_17_alg».proof.Proof.Gen.ReferenceIdeal
import proofs.«151759_g2000209558331450_pallasbulk_187_17_alg».proof.Proof.LibColumns
import Idealize.ShloMosaic.Lib.ValueIdx
import Idealize.ShloMosaic.PureOps.Ideal.Laws

noncomputable section

namespace Cert.ReferenceIdeal.Dots

open Idealize.ShloMosaic Idealize.ShloMosaic.ValueIdx Cert.ReferenceIdeal

/-- The squeeze product's dimension record. -/
abbrev D1 := dot_S8x256_S256x16_S8x16_1_0_0_1_n_n
/-- The excite product's dimension record. -/
abbrev D2 := dot_S8x16_S16x256_S8x256_1_0_0_1_n_n

theorem d1_lhs0 (j : S8x16.Idx) (k : D1.contr.Idx) : (D1.lhsIdx j k 0 : ℕ) = j 0 := by
  simp [DotDims.lhsIdx, D1, dot_S8x256_S256x16_S8x16_1_0_0_1_n_n]; rfl
theorem d1_lhs1 (j : S8x16.Idx) (k : D1.contr.Idx) : (D1.lhsIdx j k 1 : ℕ) = k ⟨0, by decide⟩ := by
  simp [DotDims.lhsIdx, D1, dot_S8x256_S256x16_S8x16_1_0_0_1_n_n]; rfl
theorem d1_rhs0 (j : S8x16.Idx) (k : D1.contr.Idx) : (D1.rhsIdx j k 0 : ℕ) = k ⟨0, by decide⟩ := by
  simp [DotDims.rhsIdx, D1, dot_S8x256_S256x16_S8x16_1_0_0_1_n_n]; rfl
theorem d1_rhs1 (j : S8x16.Idx) (k : D1.contr.Idx) : (D1.rhsIdx j k 1 : ℕ) = j 1 := by
  simp [DotDims.rhsIdx, D1, dot_S8x256_S256x16_S8x16_1_0_0_1_n_n]; rfl

theorem d2_lhs0 (j : S8x256.Idx) (k : D2.contr.Idx) : (D2.lhsIdx j k 0 : ℕ) = j 0 := by
  simp [DotDims.lhsIdx, D2, dot_S8x16_S16x256_S8x256_1_0_0_1_n_n]; rfl
theorem d2_lhs1 (j : S8x256.Idx) (k : D2.contr.Idx) : (D2.lhsIdx j k 1 : ℕ) = k ⟨0, by decide⟩ := by
  simp [DotDims.lhsIdx, D2, dot_S8x16_S16x256_S8x256_1_0_0_1_n_n]; rfl
theorem d2_rhs0 (j : S8x256.Idx) (k : D2.contr.Idx) : (D2.rhsIdx j k 0 : ℕ) = k ⟨0, by decide⟩ := by
  simp [DotDims.rhsIdx, D2, dot_S8x16_S16x256_S8x256_1_0_0_1_n_n]; rfl
theorem d2_rhs1 (j : S8x256.Idx) (k : D2.contr.Idx) : (D2.rhsIdx j k 1 : ℕ) = j 1 := by
  simp [DotDims.rhsIdx, D2, dot_S8x16_S16x256_S8x256_1_0_0_1_n_n]; rfl

/-- Entry `(b, j)` of the squeeze product into a zero accumulator. -/
theorem squeeze_apply (p : FVec Ideal S8x256 .f32) (w : FVec Ideal S256x16 .f32) (b : Fin 8) (j : Fin 16) :
    matmul D1 none p w (constant S8x16 .f32 0x00000000#32) (ix2 b j) = ∑ c : Fin 256, p (ix2 b c) * w (ix2 c j) := by
  refine (Ideal.matmul_constant_zero_apply D1 none p w (ix2 b j)).trans ?_
  refine Cert.LibColumns.sum_contr1 D1 256 (by decide) (by decide) p w (ix2 b j) (fun c => ix2 b c) (fun c => ix2 c j) (fun c => ?_) (fun c => ?_)
  · funext a; apply Fin.ext
    match a with
    | ⟨0, _⟩ => exact d1_lhs0 _ _
    | ⟨1, _⟩ => exact (d1_lhs1 _ _).trans (contrEquiv1_symm_val D1 256 _ _ c)
  · funext a; apply Fin.ext
    match a with
    | ⟨0, _⟩ => exact (d1_rhs0 _ _).trans (contrEquiv1_symm_val D1 256 _ _ c)
    | ⟨1, _⟩ => exact d1_rhs1 _ _

/-- Entry `(b, c)` of the excite product into a zero accumulator. -/
theorem excite_apply (h : FVec Ideal S8x16 .f32) (w : FVec Ideal S16x256 .f32) (b : Fin 8) (c : Fin 256) :
    matmul D2 none h w (constant S8x256 .f32 0x00000000#32) (ix2 b c) = ∑ j : Fin 16, h (ix2 b j) * w (ix2 j c) := by
  refine (Ideal.matmul_constant_zero_apply D2 none h w (ix2 b c)).trans ?_
  refine Cert.LibColumns.sum_contr1 D2 16 (by decide) (by decide) h w (ix2 b c) (fun j => ix2 b j) (fun j => ix2 j c) (fun j => ?_) (fun j => ?_)
  · funext a; apply Fin.ext
    match a with
    | ⟨0, _⟩ => exact d2_lhs0 _ _
    | ⟨1, _⟩ => exact (d2_lhs1 _ _).trans (contrEquiv1_symm_val D2 16 _ _ j)
  · funext a; apply Fin.ext
    match a with
    | ⟨0, _⟩ => exact (d2_rhs0 _ _).trans (contrEquiv1_symm_val D2 16 _ _ j)
    | ⟨1, _⟩ => exact d2_rhs1 _ _

end Cert.ReferenceIdeal.Dots

end
-- ==== Proof.RPay.lean ====
/-
  What the body stores, entry by entry.

  The body loads a block of 4 batch rows and the two weight matrices. It stacks the block's 4 mean vectors over its
  4 maximum vectors into one `8 × 256` matrix, so that row `b` of the stack is the mean vector of batch row `b` and
  row `4 + b` its maximum vector, runs the squeeze and excite products once on the stack, and adds rows `b` and
  `4 + b` of the result. At `(b, c, s)` it stores the block's entry times the logistic of that sum at channel `c`:
  the excite layer applied to each hidden vector of batch row `b` and the two numbers added (`gateSplit`).
-/
import proofs.«151759_g2000209558331450_pallasbulk_187_17_alg».proof.Proof.Gen.ReferenceIdeal.Skeleton
import proofs.«151759_g2000209558331450_pallasbulk_187_17_alg».proof.Proof.Spec
import proofs.«151759_g2000209558331450_pallasbulk_187_17_alg».proof.Proof.LibPooling
import proofs.«151759_g2000209558331450_pallasbulk_187_17_alg».proof.Proof.RDots
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Pay

open Idealize.ShloMosaic Idealize.ShloMosaic.ValueIdx Cert.ReferenceIdeal Cert.ReferenceIdeal.Gen Cert.ReferenceIdeal.Dots
open Cert.ChannelGate

/-- Batch row `b` of a block, as a matrix of channels by spatial entries. -/
abbrev rowOf (x : S4x256x1024.Idx → EReal) (b : Fin 4) : Row := fun c s => x (ix3 b c s)

/-- The mean pooling at `(b, c)`. -/
theorem mean_apply (x : FVec Ideal S4x256x1024 .f32) (h : S4x256x1024.Reduces [2] S4x256) (hφ : FKind.Formats .f32)
    (hacc : (0x00000000#32 : BitVec 32) = FKind.add.neutral .f32 hφ) (b : Fin 4) (c : Fin 256) :
    mulf (multiReduction .add [2] S4x256 x 0x00000000#32 h hφ hacc) (broadcast S4x256 (Scalar.ofBits (F := Ideal) .f32 0x3A800000#32)) (ix2 b c)
      = avg (rowOf x b) c :=
  congrArg (· * Ideal.ofBits .f32 0x3A800000#32) (Cert.LibPooling.sum_last3_apply x _ h hφ hacc b c)

/-- The maximum pooling at `(b, c)`. -/
theorem top_apply (x : FVec Ideal S4x256x1024 .f32) (h : S4x256x1024.Reduces [2] S4x256) (hφ : FKind.Formats .f32)
    (hacc : (0xFF800000#32 : BitVec 32) = FKind.maximumf.neutral .f32 hφ) (b : Fin 4) (c : Fin 256) :
    multiReduction .maximumf [2] S4x256 x 0xFF800000#32 h hφ hacc (ix2 b c) = top (rowOf x b) c :=
  Cert.LibPooling.max_last3_apply x _ h hφ hacc b c

/-- Row `r = b` of the stack is row `b` of the upper matrix. -/
theorem stack_upper (A M : FVec Ideal S4x256 .f32) (h : Shape.Concatenates [S4x256, S4x256] S8x256 0)
    (b : Fin 4) (c : Fin 256) (r : Fin 8) (hr : r.val = b.val) :
    concatenate S8x256 0 [⟨S4x256, A⟩, ⟨S4x256, M⟩] h (ix2 r c) = A (ix2 b c) :=
  concatenate_pair_apply_left 0 A M h (ix2 r c) rfl (ix2 b c) (fun a => by
    match a with
    | ⟨0, _⟩ => exact hr.symm
    | ⟨1, _⟩ => rfl)

/-- Row `r = 4 + b` of the stack is row `b` of the lower matrix. -/
theorem stack_lower (A M : FVec Ideal S4x256 .f32) (h : Shape.Concatenates [S4x256, S4x256] S8x256 0)
    (b : Fin 4) (c : Fin 256) (r : Fin 8) (hr : r.val = 4 + b.val) :
    concatenate S8x256 0 [⟨S4x256, A⟩, ⟨S4x256, M⟩] h (ix2 r c) = M (ix2 b c) :=
  concatenate_pair_apply_right 0 A M h (ix2 r c) rfl rfl (ix2 b c) (fun a => by
    match a with
    | ⟨0, _⟩ => exact fun hne => absurd rfl hne
    | ⟨1, _⟩ => exact fun _ => rfl) (by
    show b.val + 4 = r.val
    omega)

/-- A hidden unit: the squeeze product of a matrix `P` whose row `r` is the pooled vector `p`, cut off below at zero. -/
theorem hid_apply (P : FVec Ideal S8x256 .f32) (w1 : FVec Ideal S256x16 .f32) (r : Fin 8) (p : Fin 256 → EReal)
    (hP : ∀ c, P (ix2 r c) = p c) (j : Fin 16) :
    maximumf (matmul D1 none P w1 (constant S8x16 .f32 0x00000000#32)) (broadcast S8x16 (Scalar.ofBits (F := Ideal) .f32 0x00000000#32)) (ix2 r j)
      = hid w1 p j := by
  unfold hid
  refine congrArg₂ max ?_ Ideal.ofBits_zero_f32
  refine (squeeze_apply P w1 r j).trans ?_
  exact Finset.sum_congr rfl fun c _ => congrArg (· * w1 (ix2 c j)) (hP c)

/-- A hidden unit of the stack's upper half: row `r = b` sees the upper matrix's row `b`. -/
theorem hid_upper (A M : FVec Ideal S4x256 .f32) (h : Shape.Concatenates [S4x256, S4x256] S8x256 0)
    (w1 : FVec Ideal S256x16 .f32) (b : Fin 4) (r : Fin 8) (hr : r.val = b.val) (p : Fin 256 → EReal)
    (hA : ∀ c, A (ix2 b c) = p c) (j : Fin 16) :
    maximumf (matmul D1 none (concatenate S8x256 0 [⟨S4x256, A⟩, ⟨S4x256, M⟩] h) w1 (constant S8x16 .f32 0x00000000#32))
        (broadcast S8x16 (Scalar.ofBits (F := Ideal) .f32 0x00000000#32)) (ix2 r j)
      = hid w1 p j :=
  hid_apply (concatenate S8x256 0 [⟨S4x256, A⟩, ⟨S4x256, M⟩] h) w1 r p
    (fun c => (stack_upper A M h b c r hr).trans (hA c)) j

/-- A hidden unit of the stack's lower half: row `r = 4 + b` sees the lower matrix's row `b`. -/
theorem hid_lower (A M : FVec Ideal S4x256 .f32) (h : Shape.Concatenates [S4x256, S4x256] S8x256 0)
    (w1 : FVec Ideal S256x16 .f32) (b : Fin 4) (r : Fin 8) (hr : r.val = 4 + b.val) (p : Fin 256 → EReal)
    (hM : ∀ c, M (ix2 b c) = p c) (j : Fin 16) :
    maximumf (matmul D1 none (concatenate S8x256 0 [⟨S4x256, A⟩, ⟨S4x256, M⟩] h) w1 (constant S8x16 .f32 0x00000000#32))
        (broadcast S8x16 (Scalar.ofBits (F := Ideal) .f32 0x00000000#32)) (ix2 r j)
      = hid w1 p j :=
  hid_apply (concatenate S8x256 0 [⟨S4x256, A⟩, ⟨S4x256, M⟩] h) w1 r p
    (fun c => (stack_lower A M h b c r hr).trans (hM c)) j

/-- The stored value at `(b, c, s)`. -/
theorem pay_apply (x0 : Vec Ideal S4x256x1024 .f32) (w1 : Vec Ideal S256x16 .f32) (w2 : Vec Ideal S16x256 .f32)
    (b : Fin 4) (c : Fin 256) (s : Fin 1024) :
    k0_pay1 x0 w1 w2 (ix3 b c s) = x0 (ix3 b c s) * gateSplit w1 w2 (rowOf x0 b) c := by
  have hlo : b.val < 8 := by omega
  have hhi : 4 + b.val < 8 := by omega
  unfold k0_pay1
  rw [shapeCast_self x0 shapeCasts_S4x256x1024_S4x256x1024, shapeCast_self w1 shapeCasts_S256x16_S256x16,
    shapeCast_self w2 shapeCasts_S16x256_S16x256]
  refine congrArg (x0 (ix3 b c s) * ·) ?_
  refine (Cert.LibPooling.broadcastTo_bc1_bcs_apply _ _ b c s).trans ?_
  refine (Cert.LibPooling.shapeCast_bc_bc1_apply _ _ b c 0).trans ?_
  unfold gateSplit
  refine congrArg Ideal.logistic ?_
  refine congrArg₂ (· + ·) ?_ ?_
  · refine (slice2_axis0_apply 0 _ _ b c (⟨b.val, hlo⟩ : Fin 8) (Nat.zero_add _).symm).trans ?_
    refine (excite_apply _ w2 (⟨b.val, hlo⟩ : Fin 8) c).trans ?_
    refine Finset.sum_congr rfl fun j _ => congrArg (· * w2 (ix2 j c)) ?_
    exact hid_upper _ _ _ w1 b (⟨b.val, hlo⟩ : Fin 8) rfl (avg (rowOf x0 b)) (fun c' => mean_apply x0 _ _ _ b c') j
  · refine (slice2_axis0_apply 4 _ _ b c (⟨4 + b.val, hhi⟩ : Fin 8) rfl).trans ?_
    refine (excite_apply _ w2 (⟨4 + b.val, hhi⟩ : Fin 8) c).trans ?_
    refine Finset.sum_congr rfl fun j _ => congrArg (· * w2 (ix2 j c)) ?_
    exact hid_lower _ _ _ w1 b (⟨4 + b.val, hhi⟩ : Fin 8) rfl (top (rowOf x0 b)) (fun c' => top_apply x0 _ _ _ b c') j

end Cert.ReferenceIdeal.Pay

end
-- ==== Proof.RValue.lean ====
/-
  From blocks to the array.

  Grid point `t` works on batch rows `4 t … 4 t + 3`: its input block and its output block are those rows of the
  `64 × 256 × 1024` arrays, and both weight matrices are read whole at every point. What the point writes back is
  therefore the same rows of one whole-array function of the arrays the region finds (`region`): the stored entry
  depends on its own batch row only. Every batch row lies in exactly the block of point `n / 4`, so after the last
  point the output array is that function everywhere.
-/
import proofs.«151759_g2000209558331450_pallasbulk_187_17_alg».proof.Proof.Gen.ReferenceIdeal.Frame
import proofs.«151759_g2000209558331450_pallasbulk_187_17_alg».proof.Proof.RPay
import proofs.«151759_g2000209558331450_pallasbulk_187_17_alg».proof.Proof.Spec
import Idealize.ShloMosaic.Lib.ValueIdx
import Idealize.ShloMosaic.Lib.Pipeline.Value

set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Pay Cert.ChannelGate

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output array as one function of the three arrays the region finds. -/
abbrev region (c : Dev nD) : S64x256x1024.Idx → EReal :=
  scaled gateSplit (V m c main_v0) (V m c main_v1) (V m c main_v2)

/-- The index maps over the grid: the input and output blocks of point `t` are block `t` along the batch axis and
    whole along the others; the weight blocks are the whole matrices. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point `t` writes back is block `t` of `region`. -/
theorem flushed_eq (c : Dev nD) (t : Fin cfg0.N) :
    (dats m 0 c).flushed 3 t = ((cfg0.win 3).blk t).view.read (Elt Ideal) (region m c) := by
  show (cfg0.win 3).cut (grid0.coords t) ((dats m 0 c).after 3 t) = _
  rw [after0_3]
  unfold out0_3
  rw [View.canon_unit_zero zeros3]
  simp only [View.ld_unit_zero (S := S4x256x1024) zeros3, View.ld_unit_zero (S := S256x16) zeros2, View.ld_unit_zero (S := S16x256) zeros2]
  obtain ⟨e00, e01, e02, e30, e31, e32, e10, e11, e20, e21⟩ := idx_facts t
  have ht : t.val < 16 := by have := t.isLt; have hN : cfg0.N = 16 := N_0; omega
  funext j
  obtain ⟨b, ch, s, rfl⟩ : ∃ (b : Fin 4) (ch : Fin 256) (s : Fin 1024), j = ix3 b ch s := ⟨j 0, j 1, j 2, eq_ix3 j⟩
  show k0_pay1 (iblk m c 0 t) (iblk m c 1 t) (iblk m c 2 t) (ix3 b ch s) = region m c (((cfg0.win 3).blk t).view.emb (ix3 b ch s))
  refine (pay_apply (iblk m c 0 t) (iblk m c 1 t) (iblk m c 2 t) b ch s).trans ?_
  -- the batch row of the array that row `b` of block `t` is
  have hn : t.val * 4 + b.val < 64 := by have := b.isLt; omega
  have emb3 : ((cfg0.win 3).blk t).view.emb (ix3 b ch s) = ix3 (⟨t.val * 4 + b.val, hn⟩ : Fin 64) ch s := by
    funext a; apply Fin.ext
    match a with
    | ⟨0, _⟩ => show win0_3.index t (0 : Fin 3) * 4 + 1 * b.val = t.val * 4 + b.val; omega
    | ⟨1, _⟩ => show win0_3.index t (1 : Fin 3) * 256 + 1 * ch.val = ch.val; omega
    | ⟨2, _⟩ => show win0_3.index t (2 : Fin 3) * 1024 + 1 * s.val = s.val; omega
  have emb0 : ∀ (ch' : Fin 256) (s' : Fin 1024),
      ((cfg0.win 0).blk t).view.emb (ix3 b ch' s') = ix3 (⟨t.val * 4 + b.val, hn⟩ : Fin 64) ch' s' := fun ch' s' => by
    funext a; apply Fin.ext
    match a with
    | ⟨0, _⟩ => show win0_0.index t (0 : Fin 3) * 4 + 1 * b.val = t.val * 4 + b.val; omega
    | ⟨1, _⟩ => show win0_0.index t (1 : Fin 3) * 256 + 1 * ch'.val = ch'.val; omega
    | ⟨2, _⟩ => show win0_0.index t (2 : Fin 3) * 1024 + 1 * s'.val = s'.val; omega
  have blk0 : ∀ (ch' : Fin 256) (s' : Fin 1024),
      iblk m c 0 t (ix3 b ch' s') = V m c main_v0 (ix3 (⟨t.val * 4 + b.val, hn⟩ : Fin 64) ch' s') := fun ch' s' => by
    show V m c main_v0 (((cfg0.win 0).blk t).view.emb (ix3 b ch' s')) = _
    rw [emb0]
  have blk1 : (iblk m c 1 t : S256x16.Idx → EReal) = V m c main_v1 := funext fun y => by
    show V m c main_v1 (((cfg0.win 1).blk t).view.emb y) = V m c main_v1 y
    refine congrArg (V m c main_v1) (funext fun a => Fin.ext ?_)
    match a with
    | ⟨0, _⟩ => show win0_1.index t (0 : Fin 2) * 256 + 1 * (y 0).val = (y 0).val; omega
    | ⟨1, _⟩ => show win0_1.index t (1 : Fin 2) * 16 + 1 * (y 1).val = (y 1).val; omega
  have blk2 : (iblk m c 2 t : S16x256.Idx → EReal) = V m c main_v2 := funext fun y => by
    show V m c main_v2 (((cfg0.win 2).blk t).view.emb y) = V m c main_v2 y
    refine congrArg (V m c main_v2) (funext fun a => Fin.ext ?_)
    match a with
    | ⟨0, _⟩ => show win0_2.index t (0 : Fin 2) * 16 + 1 * (y 0).val = (y 0).val; omega
    | ⟨1, _⟩ => show win0_2.index t (1 : Fin 2) * 256 + 1 * (y 1).val = (y 1).val; omega
  have row : rowOf (iblk m c 0 t) b = fun ch' s' => V m c main_v0 (ix3 (⟨t.val * 4 + b.val, hn⟩ : Fin 64) ch' s') :=
    funext fun ch' => funext fun s' => blk0 ch' s'
  rw [emb3, row, blk0, blk1, blk2]
  rfl

/-- An index of the array is in point `t`'s block iff each coordinate is in the block's range on its axis. -/
theorem mem_blk (t : Fin cfg0.N) (i : S64x256x1024.Idx) :
    i ∈ ((cfg0.win 3).blk t).view.set ↔ ∀ a : Fin 3, win0_3.index t a * S4x256x1024.size a ≤ (i a).val ∧ (i a).val < win0_3.index t a * S4x256x1024.size a + S4x256x1024.size a := by
  show i ∈ ((View.whole main_v3).slice (win0_3.rect t)).set ↔ _
  rw [View.set_slice_whole, Rect.mem_set_unit]
  exact Iff.rfl

/-- Every index is in the block of the point its batch row belongs to. -/
theorem cover (i : S64x256x1024.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  have hN : grid0.N = 16 := N_0
  have hq : (i 0).val / 4 < grid0.N := by rw [hN]; omega
  obtain ⟨e00, e01, e02, e30, e31, e32, e10, e11, e20, e21⟩ := idx_facts ⟨(i 0).val / 4, hq⟩
  have e30' : win0_3.index ⟨(i 0).val / 4, hq⟩ (0 : Fin 3) = (i 0).val / 4 := e30
  refine ⟨⟨(i 0).val / 4, hq⟩, flush0_3 _, ?_⟩
  rw [mem_blk]
  intro a
  match a with
  | ⟨0, _⟩ => show win0_3.index ⟨(i 0).val / 4, hq⟩ (0 : Fin 3) * 4 ≤ (i 0).val ∧ (i 0).val < win0_3.index ⟨(i 0).val / 4, hq⟩ (0 : Fin 3) * 4 + 4; omega
  | ⟨1, _⟩ => show win0_3.index ⟨(i 0).val / 4, hq⟩ (1 : Fin 3) * 256 ≤ (i 1).val ∧ (i 1).val < win0_3.index ⟨(i 0).val / 4, hq⟩ (1 : Fin 3) * 256 + 256; omega
  | ⟨2, _⟩ => show win0_3.index ⟨(i 0).val / 4, hq⟩ (2 : Fin 3) * 1024 ≤ (i 2).val ∧ (i 2).val < win0_3.index ⟨(i 0).val / 4, hq⟩ (2 : Fin 3) * 1024 + 1024; omega

/-- The output array after the last point. -/
theorem final (c : Dev nD) : (dats m 0 c).arrAt 3 cfg0.N = region m c :=
  (dats m 0 c).arrAt_eq_of_cover 3 (region m c) (fun t _ => flushed_eq m c t) cover

end Cert.ReferenceIdeal.Val

end
-- ==== Proof.RHost.lean ====
/-
  The host lines around the region.

  Before the region the feature map's two spatial axes are merged (`64 × 256 × 32 × 32` to `64 × 256 × 1024`, the
  same entries in row-major order) and both weight matrices are transposed; after it the region's output array is
  split back to `64 × 256 × 32 × 32`. So the program's result is `whole` of the gate: the reshape of the
  region's function applied to the reshaped input and the transposed weights.
-/
import proofs.«151759_g2000209558331450_pallasbulk_187_17_alg».proof.Proof.Gen.ReferenceIdeal.Frame
import proofs.«151759_g2000209558331450_pallasbulk_187_17_alg».proof.Proof.Spec
import Idealize.ShloMosaic.Lib.StableHlo.Run
import Idealize.ShloMosaic.Lib.Pipeline.FrameSuffix

set_option maxRecDepth 16384

noncomputable section

namespace Cert.ReferenceIdeal.Host

open Idealize.ShloMosaic Idealize.ShloMosaic.TcCoe Idealize.ShloMosaic.StableHlo Idealize.SL.Sem
open Idealize.ShloMosaic.Pipeline (Dat)
open Cert.ReferenceIdeal Cert.ReferenceIdeal.Gen Cert.ChannelGate

variable (m : (ℓ : Loc nD τ sig) → Buf (Elt Ideal) ℓ) (ρ : Dev nD → PrngReg)

/-- The region finds the feature map with its spatial axes merged. -/
theorem found_v0 (c : Dev nD) :
    (V m c main_v0 : S64x256x1024.Idx → EReal)
      = shapeCast S64x256x1024 (m ((c : Thread nD τ).loc main_arg0)) shapeCasts_S64x256x32x32_S64x256x1024 := by
  show StableHlo.after hostOps0 (fun b => m (c, b)) (Proc.devRef .tc main_v0) = _
  after_results
  rfl

/-- The region finds the squeeze weights transposed. -/
theorem found_v1 (c : Dev nD) :
    (V m c main_v1 : S256x16.Idx → EReal)
      = transpose S256x16 [1, 0] (m ((c : Thread nD τ).loc main_arg1)) transposes_S16x256_S256x16_1_0 := by
  show StableHlo.after hostOps0 (fun b => m (c, b)) (Proc.devRef .tc main_v1) = _
  after_results

/-- The region finds the excite weights transposed. -/
theorem found_v2 (c : Dev nD) :
    (V m c main_v2 : S16x256.Idx → EReal)
      = transpose S16x256 [1, 0] (m ((c : Thread nD τ).loc main_arg2)) transposes_S256x16_S16x256_1_0 := by
  show StableHlo.after hostOps0 (fun b => m (c, b)) (Proc.devRef .tc main_v2) = _
  after_results

/-- The program's result is the region's output array with the spatial axis split again. -/
theorem tail_v4 (c : Dev nD) :
    (Pipeline.afterTail₀ cfgs (dats m) 0 (V0 m) [hostOps1] c main_v4 : S64x256x32x32.Idx → EReal)
      = shapeCast S64x256x32x32 ((dats m 0 c).arrAt 3 cfg0.N) shapeCasts_S64x256x1024_S64x256x32x32 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w cfg0.N) 3
  rw [e]
  rfl

end Cert.ReferenceIdeal.Host

end
-- ==== Proof.RRun.lean ====
/-
  The program's run, read.

  Every execution ends with the result array at `whole gateSplit` of the three argument arrays as launched — the
  region's output array is its whole-array function of what the region finds, the host lines before the region
  produce what it finds from the arguments, the host line after it reshapes the output — and with the arguments
  unchanged.
-/
import proofs.«151759_g2000209558331450_pallasbulk_187_17_alg».proof.Proof.Gen.ReferenceIdeal.Frame
import proofs.«151759_g2000209558331450_pallasbulk_187_17_alg».proof.Proof.RValue
import proofs.«151759_g2000209558331450_pallasbulk_187_17_alg».proof.Proof.RHost
import proofs.«151759_g2000209558331450_pallasbulk_187_17_alg».proof.Proof.Spec

set_option maxRecDepth 16384

noncomputable section

namespace Cert.ReferenceIdeal.Run

open Idealize.ShloMosaic Idealize.ShloMosaic.TcCoe Idealize.SL.Sem
open Cert.ReferenceIdeal Cert.ReferenceIdeal.Gen Cert.ChannelGate

variable (m : (ℓ : Loc nD τ sig) → Buf (Elt Ideal) ℓ) (ρ : Dev nD → PrngReg)

/-- The result array after the host line that follows the region. -/
theorem result_eq (c : Dev nD) :
    (Pipeline.afterTail₀ cfgs (dats m) 0 (V0 m) [hostOps1] c main_v4 : S64x256x32x32.Idx → EReal)
      = whole gateSplit (m ((c.tc : Thread nD τ).loc main_arg0)) (m ((c.tc : Thread nD τ).loc main_arg1))
          (m ((c.tc : Thread nD τ).loc main_arg2)) := by
  rw [Cert.ReferenceIdeal.Host.tail_v4, Cert.ReferenceIdeal.Val.final]
  show shapeCast S64x256x32x32 (scaled gateSplit (V m c main_v0) (V m c main_v1) (V m c main_v2)) _ = _
  rw [Cert.ReferenceIdeal.Host.found_v0, Cert.ReferenceIdeal.Host.found_v1, Cert.ReferenceIdeal.Host.found_v2]
  rfl

/-- Every execution terminates with the result at `whole gateSplit` of the arguments, and the arguments unchanged. -/
theorem run : θ_run defs (onTc (τ := τ) (main (F := Ideal))) ⟨m, fun _ => 0, ρ⟩ (fun r => ∀ c : Dev nD,
      r.2.mem ((c.tc : Thread nD τ).loc main_v4)
        = whole gateSplit (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Run

end
-- ==== Proof.lean ====
/-
  Channel attention: `out = x · sigmoid (fc2 (relu (fc1 (mean x))) + fc2 (relu (fc1 (max x))))`, the mean and the
  maximum taken over each channel's 32 × 32 spatial entries.

  Both programs merge the spatial axes, transpose the two weight matrices, run one region over blocks of batch rows
  (8 rows at 8 grid points in one program, 4 rows at 16 grid points in the other) and split the spatial axis again.
  A stored entry depends only on its own batch row, so either tiling gives one function of the whole arrays. The two
  bodies differ in one step: one adds the two hidden vectors and multiplies the sum by the second weight matrix, the
  other stacks the pooled vectors, multiplies once, and adds the two halves of the product afterwards. On the extended
  reals `(a + b) · w = a · w + b · w` whenever `a` and `b` are non-negative, which the hidden units are (each is a
  maximum with zero), so the two results agree at every input and the finiteness of the inputs is not used.
  The three programs run, fault-free and with unchanged arguments, by their frame certificates; no operation was
  rewritten on the way to the idealized program.
-/
import proofs.«151759_g2000209558331450_pallasbulk_187_17_alg».proof.Defs
import proofs.«151759_g2000209558331450_pallasbulk_187_17_alg».proof.Proof.Gen.Kernel
import proofs.«151759_g2000209558331450_pallasbulk_187_17_alg».proof.Proof.Gen.Kernel.Frame
import proofs.«151759_g2000209558331450_pallasbulk_187_17_alg».proof.Proof.Gen.KernelIdeal
import proofs.«151759_g2000209558331450_pallasbulk_187_17_alg».proof.Proof.Gen.KernelIdeal.Frame
import proofs.«151759_g2000209558331450_pallasbulk_187_17_alg».proof.Proof.Gen.ReferenceIdeal
import proofs.«151759_g2000209558331450_pallasbulk_187_17_alg».proof.Proof.Gen.ReferenceIdeal.Frame
import proofs.«151759_g2000209558331450_pallasbulk_187_17_alg».proof.Proof.Gen.Pre_finite_inputs
import proofs.«151759_g2000209558331450_pallasbulk_187_17_alg».proof.Proof.Spec
import proofs.«151759_g2000209558331450_pallasbulk_187_17_alg».proof.Proof.KRun
import proofs.«151759_g2000209558331450_pallasbulk_187_17_alg».proof.Proof.RRun
import Idealize.ShloMosaic.Adequacy
import Idealize.ShloMosaic.Init

noncomputable section

namespace Cert.Proof

open Idealize.ShloMosaic Idealize.SL.Sem Cert.ChannelGate

/-- Both idealized programs end with the result array at one function of the arguments: the first at `whole gateSum`,
    the second at `whole gateSplit` of arguments that agree with the first's, and the two gates are one function. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Run.run m' ρ')
  rw [(hagree c).1, (hagree c).2.1, (hagree c).2.2, whole_split_eq_sum]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
